-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32000 : Shape := ⟨3, ![16, 512, 32000]⟩
abbrev S16x512 : Shape := ⟨2, ![16, 512]⟩
abbrev S_ : Shape := ⟨0, ![]⟩

class Facts : Prop where
  bcast_S_S16x512x32000 : S_.BroadcastsInDim S16x512x32000 (![] : Fin 0 → Fin S16x512x32000.rank)
  reducesTo_S16x512x32000_S_d0_1_2 : S16x512x32000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  main_v18

def fn {F : FTy → Type} [FloatOps F] (main_arg0 : FVec F S16x512x32000 .f32) (main_arg1 : FVec F S16x512 .f32) (main_arg2 : FVec F S16x512 .f32) (main_arg3 : FVec F S16x512 .f32) (main_arg4 : IVec S16x512 32) : IVec S_ 1 :=
  let main_v0 : FVec F S16x512x32000 .f32 := Host.absf main_arg0
  let main_cst : FVec F S_ .f32 := constant S_ .f32 0x7F800000#32
  let main_v1 : FVec F S16x512x32000 .f32 := broadcastInDim S16x512x32000 ![] bcast_S_S16x512x32000 main_cst
  let main_v2 : IVec S16x512x32000 1 := cmpf .olt main_v0 main_v1
  let main_c : IVec S_ 1 := constantI S_ 1 1#1
  let main_v3 : IVec S_ 1 := (fun x v => Host.reduce IntOp.andi x v reducesTo_S16x512x32000_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_v13 main_v16
-- ==== Kernel.lean ====
abbrev S16x512x32000 : Shape := ⟨3, ![16, 512, 32000]⟩
abbrev S16x512 : Shape := ⟨2, ![16, 512]⟩
abbrev S_ : Shape := ⟨0, ![]⟩
abbrev S16 : Shape := ⟨1, ![16]⟩
abbrev S16x1 : Shape := ⟨2, ![16, 1]⟩
abbrev S8192 : Shape := ⟨1, ![8192]⟩
abbrev S8208 : Shape := ⟨1, ![8208]⟩
abbrev S8192x1 : Shape := ⟨2, ![8192, 1]⟩
abbrev S16x513 : Shape := ⟨2, ![16, 513]⟩
abbrev S16x512x1 : Shape := ⟨3, ![16, 512, 1]⟩
abbrev S1 : Shape := ⟨1, ![1]⟩
abbrev S1x1x1 : Shape := ⟨3, ![1, 1, 1]⟩
abbrev S8192x32000 : Shape := ⟨2, ![8192, 32000]⟩
abbrev S1x1 : Shape := ⟨2, ![1, 1]⟩
abbrev S64x32000 : Shape := ⟨2, ![64, 32000]⟩
abbrev S64 : Shape := ⟨1, ![64]⟩
abbrev S64x1 : Shape := ⟨2, ![64, 1]⟩

abbrev nBuf : Space → Nat
  | .hbm => 84
  | .vmem => 4
  | .smem => 0
  | _ => 0

abbrev bufTy : (tb : Table) → Fin (tcTables nBuf tb) → BufTy
  | .hbm, ⟨0, _⟩ => ⟨S16x512x32000, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .i32⟩
  | .hbm, ⟨5, _⟩ => ⟨S16x512, .f32⟩
  | .hbm, ⟨6, _⟩ => ⟨S16x512, .f32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S16x512, .i32⟩
  | .hbm, ⟨11, _⟩ => ⟨S16, .i32⟩
  | .hbm, ⟨12, _⟩ => ⟨S16x1, .i32⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S16x512, .i32⟩
  | .hbm, ⟨17, _⟩ => ⟨S16x512, .i32⟩
  | .hbm, ⟨18, _⟩ => ⟨S8192, .i32⟩
  | .hbm, ⟨19, _⟩ => ⟨S8192, .f32⟩
  | .hbm, ⟨20, _⟩ => ⟨S_, .f32⟩
  | .hbm, ⟨21, _⟩ => ⟨S8208, .f32⟩
  | .hbm, ⟨22, _⟩ => ⟨S8192x1, .i32⟩
  | .hbm, ⟨23, _⟩ => ⟨S8208, .f32⟩
  | .hbm, ⟨24, _⟩ => ⟨S16x513, .f32⟩
  | .hbm, ⟨25, _⟩ => ⟨S_, .i32⟩
  | .hbm, ⟨26, _⟩ => ⟨S16x512, .i32⟩
  | .hbm, ⟨27, _⟩ => ⟨S16x512, .i1⟩
  | .hbm, ⟨28, _⟩ => ⟨S_, .i32⟩
  | .hbm, ⟨29, _⟩ => ⟨S16x512, .i32⟩
  | .hbm, ⟨30, _⟩ => ⟨S16x512, .i32⟩
  | .hbm, ⟨31, _⟩ => ⟨S16x512, .i32⟩
  | .hbm, ⟨32, _⟩ => ⟨S16x512x1, .i32⟩
  | .hbm, ⟨33, _⟩ => ⟨S1, .i32⟩
  | .hbm, ⟨34, _⟩ => ⟨S_, .i32⟩
  | .hbm, ⟨35, _⟩ => ⟨S16x512x1, .i32⟩
  | .hbm, ⟨36, _⟩ => ⟨S16x512x1, .i1⟩
  | .hbm, ⟨37, _⟩ => ⟨S1x1x1, .i32⟩
  | .hbm, ⟨38, _⟩ => ⟨S16x512x1, .i32⟩
  | .hbm, ⟨39, _⟩ => ⟨S16x512x1, .i1⟩
  | .hbm, ⟨40, _⟩ => ⟨S16x512x1, .i1⟩
  | .hbm, ⟨41, _⟩ => ⟨S_, .i1⟩
  | .hbm, ⟨42, _⟩ => ⟨S16x512, .i1⟩
  | .hbm, ⟨43, _⟩ => ⟨S16x512, .f32⟩
  | .hbm, ⟨44, _⟩ => ⟨S_, .f32⟩
  | .hbm, ⟨45, _⟩ => ⟨S16x512, .f32⟩
  | .hbm, ⟨46, _⟩ => ⟨S16x512, .f32⟩
  | .hbm, ⟨47, _⟩ => ⟨S_, .i32⟩
  | .hbm, ⟨48, _⟩ => ⟨S16, .i32⟩
  | .hbm, ⟨49, _⟩ => ⟨S16x1, .i32⟩
  | .hbm, ⟨50, _⟩ => ⟨S16x512, .i32⟩
  | .hbm, ⟨51, _⟩ => ⟨S16x512, .i1⟩
  | .hbm, ⟨52, _⟩ => ⟨S16, .i32⟩
  | .hbm, ⟨53, _⟩ => ⟨S16x1, .i32⟩
  | .hbm, ⟨54, _⟩ => ⟨S_, .i32⟩
  | .hbm, ⟨55, _⟩ => ⟨S16x1, .i32⟩
  | .hbm, ⟨56, _⟩ => ⟨S16x1, .i1⟩
  | .hbm, ⟨57, _⟩ => ⟨S16x512, .i1⟩
  | .hbm, ⟨58, _⟩ => ⟨S16x512, .i1⟩
  | .hbm, ⟨59, _⟩ => ⟨S_, .f32⟩
  | .hbm, ⟨60, _⟩ => ⟨S16x512, .f32⟩
  | .hbm, ⟨61, _⟩ => ⟨S16x512, .f32⟩
  | .hbm, ⟨62, _⟩ => ⟨S16x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16x512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192x32000, .f32⟩
  | .hbm, ⟨74, _⟩ => ⟨S1x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S1x1, .f32⟩
  | .local _ .vmem, ⟨3, _⟩ => ⟨S1x1, .f32⟩
  | _, _ => ⟨S16x512x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v16 : Ref sig .tc := ⟨.hbm, 46, rfl⟩
abbrev main_c_0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_call2_v0 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_7 : Ref sig .tc := ⟨.hbm, 76, rfl⟩
abbrev main_v38 : Ref sig .tc := ⟨.hbm, 77, rfl⟩
abbrev main_cst_8 : Ref sig .tc := ⟨.hbm, 78, rfl⟩
abbrev main_v39 : Ref sig .tc := ⟨.hbm, 79, rfl⟩
abbrev main_v40 : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v16 : BitVec 1 := Scalar.cmpi .eq arg0 c127_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  shapeCasts_S16x512_S8192 : S16x512.ShapeCasts S8192
  bcast_S_S8208 : S_.BroadcastsInDim S8208 (![] : Fin 0 → Fin S8208.rank)
  bcast_S8192_S8192x1_0 : S8192.BroadcastsInDim S8192x1 (![0] : Fin 1 → Fin S8192x1.rank)
  shapeCasts_S8208_S16x513 : S8208.ShapeCasts S16x513
  bcast_S_S16x512 : S_.BroadcastsInDim S16x512 (![] : Fin 0 → Fin S16x512.rank)
  shapeCasts_S16x512_S16x512x1 : S16x512.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  reducesTo_S16x512_S16_d1 : S16x512.ReducesTo [1] S16
  reducesTo_S16x512_S_d0_1 : S16x512.ReducesTo [0, 1] S_
  shapeCasts_S16x512x32000_S8192x32000 : S16x512x32000.ShapeCasts S8192x32000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x32000_S64x32000_0_0 : ∀ a, (![0, 0] : Fin 2 → Nat) a + S64x32000.size a ≤ S64x32000.size a
  h_S64x32000 : 0 < S64x32000.numel
  shapeCasts_S64x32000_S64x32000 : S64x32000.ShapeCasts S64x32000
  reduces_S64x32000_S64 : S64x32000.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  scatter_S8208_S8192x1_S8192_n_0_0_1_wf : ScatterDims.WF S8208 S8192x1 S8192 [] [0] [0] 1
  gather_S16x513_S16x512x1_S16x512_n_1_0_0_1_2_11_wf : GatherDims.WF S16x513 S16x512x1 S16x512 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S8192x32000.size a
  hwx0_0 : ∀ i : grid0.Coords, EltTy.bits .f32 = 32 ∨ (Rect.block (s := S8192x32000) S64x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def scatter_S8208_S8192x1_S8192_n_0_0_1 : ScatterDims S8208 S8192x1 S8192 where
  updateWindowDims := []
  insertedWindowDims := [0]
  scatterDimsToOperandDims := [0]
  indexVectorDim := 1
  wf := scatter_S8208_S8192x1_S8192_n_0_0_1_wf
def gather_S16x513_S16x512x1_S16x512_n_1_0_0_1_2_11 : GatherDims S16x513 S16x512x1 S16x512 where
  offsetDims := []
  collapsedSliceDims := [1]
  operandBatchingDims := [0]
  startIndicesBatchingDims := [0]
  startIndexMap := [1]
  indexVectorDim := 2
  sliceSizes := ![1, 1]
  wf := gather_S16x513_S16x512x1_S16x512_n_1_0_0_1_2_11_wf

abbrev win0_0 : Pipeline.Window sig grid0 :=
  Pipeline.Window.ofSpec (Memref.whole main_v35) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x512x32000 : Shape := ⟨3, ![16, 512, 32000]⟩
abbrev S16x512 : Shape := ⟨2, ![16, 512]⟩
abbrev S_ : Shape := ⟨0, ![]⟩
abbrev S16 : Shape := ⟨1, ![16]⟩
abbrev S16x1 : Shape := ⟨2, ![16, 1]⟩
abbrev S8192 : Shape := ⟨1, ![8192]⟩
abbrev S8208 : Shape := ⟨1, ![8208]⟩
abbrev S8192x1 : Shape := ⟨2, ![8192, 1]⟩
abbrev S16x513 : Shape := ⟨2, ![16, 513]⟩
abbrev S16x512x1 : Shape := ⟨3, ![16, 512, 1]⟩
abbrev S1 : Shape := ⟨1, ![1]⟩
abbrev S1x1x1 : Shape := ⟨3, ![1, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S16x512x32000, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .i32⟩
  | .hbm, ⟨5, _⟩ => ⟨S16x512, .f32⟩
  | .hbm, ⟨6, _⟩ => ⟨S16x512, .f32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S16x512, .i32⟩
  | .hbm, ⟨11, _⟩ => ⟨S16, .i32⟩
  | .hbm, ⟨12, _⟩ => ⟨S16x1, .i32⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S16x512, .i32⟩
  | .hbm, ⟨17, _⟩ => ⟨S16x512, .i32⟩
  | .hbm, ⟨18, _⟩ => ⟨S8192, .i32⟩
  | .hbm, ⟨19, _⟩ => ⟨S8192, .f32⟩
  | .hbm, ⟨20, _⟩ => ⟨S_, .f32⟩
  | .hbm, ⟨21, _⟩ => ⟨S8208, .f32⟩
  | .hbm, ⟨22, _⟩ => ⟨S8192x1, .i32⟩
  | .hbm, ⟨23, _⟩ => ⟨S8208, .f32⟩
  | .hbm, ⟨24, _⟩ => ⟨S16x513, .f32⟩
  | .hbm, ⟨25, _⟩ => ⟨S_, .i32⟩
  | .hbm, ⟨26, _⟩ => ⟨S16x512, .i32⟩
  | .hbm, ⟨27, _⟩ => ⟨S16x512, .i1⟩
  | .hbm, ⟨28, _⟩ => ⟨S_, .i32⟩
  | .hbm, ⟨29, _⟩ => ⟨S16x512, .i32⟩
  | .hbm, ⟨30, _⟩ => ⟨S16x512, .i32⟩
  | .hbm, ⟨31, _⟩ => ⟨S16x512, .i32⟩
  | .hbm, ⟨32, _⟩ => ⟨S16x512x1, .i32⟩
  | .hbm, ⟨33, _⟩ => ⟨S1, .i32⟩
  | .hbm, ⟨34, _⟩ => ⟨S_, .i32⟩
  | .hbm, ⟨35, _⟩ => ⟨S16x512x1, .i32⟩
  | .hbm, ⟨36, _⟩ => ⟨S16x512x1, .i1⟩
  | .hbm, ⟨37, _⟩ => ⟨S1x1x1, .i32⟩
  | .hbm, ⟨38, _⟩ => ⟨S16x512x1, .i32⟩
  | .hbm, ⟨39, _⟩ => ⟨S16x512x1, .i1⟩
  | .hbm, ⟨40, _⟩ => ⟨S16x512x1, .i1⟩
  | .hbm, ⟨41, _⟩ => ⟨S_, .i1⟩
  | .hbm, ⟨42, _⟩ => ⟨S16x512, .i1⟩
  | .hbm, ⟨43, _⟩ => ⟨S16x512, .f32⟩
  | .hbm, ⟨44, _⟩ => ⟨S_, .f32⟩
  | .hbm, ⟨45, _⟩ => ⟨S16x512, .f32⟩
  | .hbm, ⟨46, _⟩ => ⟨S16x512, .f32⟩
  | .hbm, ⟨47, _⟩ => ⟨S_, .i32⟩
  | .hbm, ⟨48, _⟩ => ⟨S16, .i32⟩
  | .hbm, ⟨49, _⟩ => ⟨S16x1, .i32⟩
  | .hbm, ⟨50, _⟩ => ⟨S16x512, .i32⟩
  | .hbm, ⟨51, _⟩ => ⟨S16x512, .i1⟩
  | .hbm, ⟨52, _⟩ => ⟨S16, .i32⟩
  | .hbm, ⟨53, _⟩ => ⟨S16x1, .i32⟩
  | .hbm, ⟨54, _⟩ => ⟨S_, .i32⟩
  | .hbm, ⟨55, _⟩ => ⟨S16x1, .i32⟩
  | .hbm, ⟨56, _⟩ => ⟨S16x1, .i1⟩
  | .hbm, ⟨57, _⟩ => ⟨S16x512, .i1⟩
  | .hbm, ⟨58, _⟩ => ⟨S16x512, .i1⟩
  | .hbm, ⟨59, _⟩ => ⟨S_, .f32⟩
  | .hbm, ⟨60, _⟩ => ⟨S16x512, .f32⟩
  | .hbm, ⟨61, _⟩ => ⟨S16x512, .f32⟩
  | .hbm, ⟨62, _⟩ => ⟨S16x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16x512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S16x512x32000, .f32⟩
  | .hbm, ⟨74, _⟩ => ⟨S16x512x32000, .f32⟩
  | .hbm, ⟨75, _⟩ => ⟨S_, .f32⟩
  | .hbm, ⟨76, _⟩ => ⟨S16x512, .f32⟩
  | .hbm, ⟨77, _⟩ => ⟨S16x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S16x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v16 : Ref sig .tc := ⟨.hbm, 46, rfl⟩
abbrev main_c_0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_call2_v0 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_v38 : Ref sig .tc := ⟨.hbm, 77, rfl⟩
abbrev main_cst_8 : Ref sig .tc := ⟨.hbm, 78, rfl⟩
abbrev main_v39 : Ref sig .tc := ⟨.hbm, 79, rfl⟩
abbrev main_cst_9 : Ref sig .tc := ⟨.hbm, 80, rfl⟩
abbrev main_v40 : Ref sig .tc := ⟨.hbm, 81, rfl⟩
abbrev main_v41 : Ref sig .tc := ⟨.hbm, 82, rfl⟩
abbrev main_cst_10 : Ref sig .tc := ⟨.hbm, 83, rfl⟩
abbrev main_v42 : Ref sig .tc := ⟨.hbm, 84, rfl⟩
abbrev main_v43 : Ref sig .tc := ⟨.hbm, 85, rfl⟩
abbrev main_cst_11 : Ref sig .tc := ⟨.hbm, 86, rfl⟩
abbrev main_v44 : Ref sig .tc := ⟨.hbm, 87, rfl⟩
abbrev main_v45 : Ref sig .tc := ⟨.hbm, 88, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  shapeCasts_S16x512_S8192 : S16x512.ShapeCasts S8192
  bcast_S_S8208 : S_.BroadcastsInDim S8208 (![] : Fin 0 → Fin S8208.rank)
  bcast_S8192_S8192x1_0 : S8192.BroadcastsInDim S8192x1 (![0] : Fin 1 → Fin S8192x1.rank)
  shapeCasts_S8208_S16x513 : S8208.ShapeCasts S16x513
  bcast_S_S16x512 : S_.BroadcastsInDim S16x512 (![] : Fin 0 → Fin S16x512.rank)
  shapeCasts_S16x512_S16x512x1 : S16x512.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  reducesTo_S16x512_S16_d1 : S16x512.ReducesTo [1] S16
  reducesTo_S16x512_S_d0_1 : S16x512.ReducesTo [0, 1] S_
  reducesTo_S16x512x32000_S16x512_d2 : S16x512x32000.ReducesTo [2] S16x512
  scatter_S8208_S8192x1_S8192_n_0_0_1_wf : ScatterDims.WF S8208 S8192x1 S8192 [] [0] [0] 1
  gather_S16x513_S16x512x1_S16x512_n_1_0_0_1_2_11_wf : GatherDims.WF S16x513 S16x512x1 S16x512 [] [1] [0] [1] [0] 2 ![1, 1]

variable [Facts₀]

def scatter_S8208_S8192x1_S8192_n_0_0_1 : ScatterDims S8208 S8192x1 S8192 where
  updateWindowDims := []
  insertedWindowDims := [0]
  scatterDimsToOperandDims := [0]
  indexVectorDim := 1
  wf := scatter_S8208_S8192x1_S8192_n_0_0_1_wf
def gather_S16x513_S16x512x1_S16x512_n_1_0_0_1_2_11 : GatherDims S16x513 S16x512x1 S16x512 where
  offsetDims := []
  collapsedSliceDims := [1]
  operandBatchingDims := [0]
  startIndicesBatchingDims := [0]
  startIndexMap := [1]
  indexVectorDim := 2
  sliceSizes := ![1, 1]
  wf := gather_S16x513_S16x512x1_S16x512_n_1_0_0_1_2_11_wf

class Facts : Prop extends Facts₀ where

variable [Facts]
-- ==== Proof.KernelCases.lean ====
import proofs.«101234_j55662776156760_1_alg».proof.Proof.Gen.KernelIdeal.Frame
import Idealize.ShloMosaic.Lib.Pipeline.Value
import Idealize.ShloMosaic.Lib.Tactic

/-!
# What the kernel body leaves at one grid point

The body keeps a running total in a one-element scratch. At the first point it stores the zero there, reads it
back and stores zero + s(x), where s(x) is the sum over the point's 64 x 32000 block x of p * log p; at every
later point it stores acc + s(x) over what the point before left (acc); at the last point it also copies the
new total into the one-element output block. In each of the three control cases the scratch (and at the last point
the output block) therefore ends at ONE application of the body's arithmetic to the block and the carried value,
which is the payload of the covering store.
-/

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- A later point that is not the last: the scratch ends at acc + s(x). -/
theorem scratch_mid (c : Dev nD) (i : grid0.Coords) (a1 : Memref sig .tc .vmem S64x32000 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S64x32000 .f32) (xs : Vec F S1x1 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  rw [View.canon_unit_zero hz]
  simp only [View.readAt_eq_ld, h1.read_unread, h3.read_unread, View.ld_unit_zero (S := S64x32000) hz,
    View.ld_unit_zero (S := S1x1) hz]

/-- The first point: the scratch ends at zero + s(x), the zero being the value the body stored just before. -/
theorem scratch_first (c : Dev nD) (i : grid0.Coords) (a1 : Memref sig .tc .vmem S64x32000 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S64x32000 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S64x32000) hz]

/-- The last point: the scratch ends at acc + s(x), -/
theorem scratch_last (c : Dev nD) (i : grid0.Coords) (a1 : Memref sig .tc .vmem S64x32000 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S64x32000 .f32) (xs : Vec F S1x1 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S64x32000) hz,
    View.ld_unit_zero (S := S1x1) hz]

/-- and the output block at the same value, read back from the scratch. -/
theorem out_last (c : Dev nD) (i : grid0.Coords) (a1 : Memref sig .tc .vmem S64x32000 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S64x32000 .f32) (xs : Vec F S1x1 .f32) :
    out0_C_1 c i a1 h1 a2 h2 a3 h3 hc0 hc1 x xs = k0_pay2 x xs := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz, View.readCov_unit_zero (S := S1x1) _ hz]
  simp only [View.readAt_eq_ld, h1.read_unread, h3.read_unread, View.ld_unit_zero (S := S64x32000) hz,
    View.ld_unit_zero (S := S1x1) hz]

end Cert.KernelIdeal.KVal

end
-- ==== Proof.KernelRun.lean ====
import proofs.«101234_j55662776156760_1_alg».proof.Proof.Gen.KernelIdeal.Frame
import Idealize.ShloMosaic.Lib.Pipeline.Value
import Idealize.ShloMosaic.Lib.Tactic
import proofs.«101234_j55662776156760_1_alg».proof.Proof.KernelCases
/-!
# The kernel's run, read as values

The scratch total after grid point n is the body's arithmetic applied to the blocks of points 0 … n in order
(induction on the point over the three control cases). Only the last point writes the one-element output block
back, and that block is the whole output array, so the array ends at the total after the last point. The host
lines after the region divide it by the number of rows and combine it with the two losses computed before the
region.
-/

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-- The running total after point n: the body's arithmetic applied to the blocks of points 0 … n in order. -/
def total (c : Dev nD) : (n : ℕ) → n < cfg0.N → Vec F S1x1 .f32
  | 0, h => k0_pay2 (iblk m c 0 ⟨0, h⟩) (k0_pay1 (F := F))
  | n + 1, h => k0_pay2 (iblk m c 0 ⟨n + 1, h⟩) (total c n (Nat.lt_of_succ_lt h))

/-- The scratch after point n holds the running total. -/
theorem scratch_eq (c : Dev nD) : ∀ (n : ℕ) (h : n < cfg0.N), (outsAt0 m c n h).2 = total m c n h
  | 0, h => by
    rw [outsAt0_A m c ⟨0, h⟩ rfl (by dsimp only; omega)]
    dsimp only
    rw [scratch_first (F := F)]
    rfl
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      rw [scratch_last]
      show k0_pay2 _ (outsAt0 m c n _).2 = k0_pay2 _ (total m c n _)
      rw [scratch_eq c n]
    · rw [outsAt0_B m c ⟨n + 1, h⟩ h0 h1]
      dsimp only
      rw [scratch_mid]
      show k0_pay2 _ (outsAt0 m c n _).2 = k0_pay2 _ (total m c n _)
      rw [scratch_eq c n]

theorem lastN : 127 < cfg0.N := by rw [show cfg0.N = 128 from N_0]; decide

/-- The last grid point. -/
abbrev tLast : Fin cfg0.N := ⟨127, lastN⟩

/-- At the last point the output block holds the total too. -/
theorem out_eq (c : Dev nD) : (outsAt0 m c 127 lastN).1 = total m c 127 lastN := by
  rw [outsAt0_C m c tLast (by decide) (by decide)]
  dsimp only
  rw [out_last]
  show k0_pay2 _ (outsAt0 m c 126 _).2 = k0_pay2 _ (total m c 126 _)
  rw [scratch_eq m c 126]

/-- The total after the last point, as contents of the output array (its one block is the array). -/
abbrev result (c : Dev nD) : Buf (Elt F) ((c : Thread nD τ).loc main_v36) := total m c 127 lastN

/-- The one write-back, at the last point, writes it. -/
theorem flushed_eq (c : Dev nD) (t : Fin cfg0.N) (hf : (cfg0.win 1).flush t = true) :
    (dats m 0 c).flushed 1 t = ((cfg0.win 1).blk t).view.read (Elt F) (result m c) := by
  have hN : cfg0.N = 128 := N_0
  have h127 : t.val = 127 := by have := (flush0_1 t).mp hf; have := t.isLt; omega
  obtain rfl : t = tLast := Fin.ext h127
  show (cfg0.win 1).cut (grid0.coords tLast) ((dats m 0 c).after 1 tLast) = _
  rw [after0_1, out_eq]
  have hz' : (fun a => win0_1.index tLast a * main_v36.ty.shape.size a) = fun _ => 0 := funext fun a => by fin_cases a <;> decide
  exact (Memref.read_access_unit_zero (Elt F) main_v36 hz' (fun a => by rw [congrFun hz' a]; simp) (result m c)).symm

/-- So the output array ends holding the total after the last point: that point's block covers the array. -/
theorem final_o (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v36).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The host lines after the region as one function of the three values they read: the policy loss, the value loss
    and the kernel's one-element output. -/
def combine (p v : Vec F S_ .f32) (o : Vec F S1x1 .f32) : Vec F S_ .f32 :=
  addf (addf p (mulf (constant S_ .f32 0x3F000000#32) v))
    (mulf (constant S_ .f32 0x3BA3D70A#32) (Host.divf (shapeCast S_ o shapeCasts_S1x1_S_) (constant S_ .f32 0x46000000#32)))

/-- What the lines after the region leave in the result buffer. -/
theorem tail_eq (c : Dev nD) :
    Pipeline.afterTail₀ cfgs (dats m) 0 (V0 m) [hostOps1] c main_v42
      = combine (V m c main_v31) (V m c main_v34) (result m c) := by
  unfold Pipeline.afterTail₀
  show StableHlo.after hostOps1 _ (Proc.devRef .tc main_v42) = _
  after_results
  rw [Pipeline.withArrays_of_ne _ c (V0 m c) _ main_v31 (by exact (by decide : ∀ w, Pipeline.arrRef spec0 w ≠ main_v31)),
    Pipeline.withArrays_of_ne _ c (V0 m c) _ main_v34 (by exact (by decide : ∀ w, Pipeline.arrRef spec0 w ≠ main_v34)),
    show Pipeline.withArrays (cfgs 0).spec c (V0 m c) (fun w => (dats m 0 c).arrAt w (cfgs 0).N) (Proc.devRef .tc main_v36) = result m c from
      (Pipeline.withArrays_arr spec0 launch0.win.arr_inj c _ _ 1).trans (final_o m c)]
  rfl

/-- The run, read: the result buffer at the combination, the arguments unchanged. -/
theorem run : θ_run defs (onTc (τ := τ) (main (F := F))) ⟨m, fun _ => 0, ρ⟩ fun r => ∀ c : Dev nD,
      r.2.mem ((c.tc : Thread nD τ).loc main_v42) = combine (V m c main_v31) (V m c main_v34) (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v42 (Pipeline.mem_restRefs_of main_v42 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KVal

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.KernelBlocks.lean ====
import proofs.«101234_j55662776156760_1_alg».proof.Proof.Gen.KernelIdeal.Frame
import Idealize.ShloMosaic.Lib.Pipeline.Value
import Idealize.ShloMosaic.Lib.Tactic
import proofs.«101234_j55662776156760_1_alg».proof.Proof.KernelRun
import proofs.«101234_j55662776156760_1_alg».proof.Proof.LibSums
import Idealize.ShloMosaic.Lib.ValueIdx
import Idealize.ShloMosaic.Lib.StableHlo.Run
/-!
# The input blocks

The pallas_call streams the argument, reshaped by the host to 8192 rows of 32000, in 128 blocks of 64 rows:
element (r, v) of block t is element (64 t + r, v) of the reshaped array, and the reshaped array is the argument
read through the row-major re-indexing. Summing any function over the blocks, block by block, is therefore summing
it over every element of the argument.
-/

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- Grid point t as a point of the pipeline's grid. -/
abbrev pt (t : Fin 128) : Fin cfg0.N := ⟨t.val, by rw [show cfg0.N = 128 from N_0]; exact t.isLt⟩

/-- Row 64 t + r of the reshaped argument. -/
abbrev rowIx (t : Fin 128) (r : Fin 64) (v : Fin 32000) : S8192x32000.Idx :=
  ix2 (⟨64 * t.val + r.val, by have := t.isLt; have := r.isLt; omega⟩ : Fin 8192) v

/-- The host's reshape before the region: the array the input window stages is the argument re-indexed. -/
theorem staged_eq (c : Dev nD) :
    (V m c main_v35 : S8192x32000.Idx → F .f32)
      = shapeCast S8192x32000 (m ((c : Thread nD τ).loc main_arg0)) shapeCasts_S16x512x32000_S8192x32000 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- Element (r, v) of block t of an array of 8192 rows is its element (64 t + r, v). -/
theorem blk_read (c : Dev nD) (A : S8192x32000.Idx → F .f32) (t : Fin 128) (r : Fin 64) (v : Fin 32000) :
    (((cfg0.win 0).blk (pt t)).view.read (Elt F) A : S64x32000.Idx → F .f32) (ix2 r v) = A (rowIx t r v) := by
  have hi : win0_0.index (pt t) 0 = t.val ∧ win0_0.index (pt t) 1 = 0 :=
    (by decide +kernel : ∀ u : Fin grid0.N, win0_0.index u 0 = u.val ∧ win0_0.index u 1 = 0) (pt t)
  rw [View.read_apply]
  refine congrArg A (funext fun a => Fin.ext ?_)
  match a with
  | ⟨0, _⟩ => show win0_0.index (pt t) 0 * 64 + 1 * r.val = 64 * t.val + r.val; rw [hi.1]; omega
  | ⟨1, _⟩ => show win0_0.index (pt t) 1 * 32000 + 1 * v.val = v.val; rw [hi.2]; omega

/-- So the block the body loads at point t is the argument at those rows. -/
theorem iblk_apply (c : Dev nD) (t : Fin 128) (r : Fin 64) (v : Fin 32000) :
    (iblk m c 0 (pt t) : S64x32000.Idx → F .f32) (ix2 r v)
      = shapeCast S8192x32000 (m ((c : Thread nD τ).loc main_arg0)) shapeCasts_S16x512x32000_S8192x32000 (rowIx t r v) := by
  unfold iblk
  rw [← staged_eq m c]
  exact blk_read c _ t r v

/-- Summed block by block, any function of the elements is summed over the whole argument. -/
theorem sum_blocks {M : Type*} [AddCommMonoid M] (c : Dev nD) (g : F .f32 → M) :
    ∑ t : Fin 128, ∑ j : S64x32000.Idx, g ((iblk m c 0 (pt t) : S64x32000.Idx → F .f32) j)
      = ∑ i : S16x512x32000.Idx, g (m ((c : Thread nD τ).loc main_arg0) i) := by
  have e1 : ∀ t : Fin 128, ∑ j : S64x32000.Idx, g ((iblk m c 0 (pt t) : S64x32000.Idx → F .f32) j)
      = ∑ r : Fin 64, ∑ v : Fin 32000, g (shapeCast S8192x32000 (m ((c : Thread nD τ).loc main_arg0)) shapeCasts_S16x512x32000_S8192x32000 (rowIx t r v)) := by
    intro t
    rw [sum_idx2]
    exact Finset.sum_congr rfl fun r _ => Finset.sum_congr rfl fun v _ => congrArg g (iblk_apply m c t r v)
  rw [Finset.sum_congr rfl fun t _ => e1 t]
  rw [← Equiv.sum_comp (Shape.reshapeEquiv shapeCasts_S16x512x32000_S8192x32000) fun i => g (m ((c : Thread nD τ).loc main_arg0) i)]
  rw [sum_idx2 (n0 := 8192) (n1 := 32000)]
  rw [Cert.LibSums.sum_by_tiles (T := 128) (R := 64) (N := 8192) (by norm_num)]
  rfl

end Cert.KernelIdeal.KVal

end
-- ==== Proof.EntropyAlgebra.lean ====
/-
  The extended-real algebra behind an entropy sum.

  Both programs compute the sum over all elements p of p * log p, divided by 8192.
  On the extended reals the term p * log p is never the bottom element:
    p = bottom gives bottom * bottom = top; p a negative real gives p * bottom = top;
    p = 0 gives 0 * bottom = 0; p a positive real gives a real; p = top gives top.
  For terms that are never bottom, negation distributes over finite sums, so a sum of
  negated partial sums, negated again, is the plain sum. No finiteness is assumed.
-/
import Idealize.ShloMosaic.PureOps.Ideal
import Idealize.ShloMosaic.PureOps.Ideal.Laws
import Mathlib.Data.EReal.Operations
import Mathlib.Data.EReal.Inv
import Mathlib.Algebra.BigOperators.Group.Finset.Basic

noncomputable section

namespace Cert.EntropyAlg

open Idealize.ShloMosaic

/-- The term p * log p is never the bottom element. -/
theorem mul_log_ne_bot (p : EReal) : p * Ideal.log p ≠ ⊥ := by
  induction p using EReal.rec with
  | bot => rw [Ideal.log_bot, EReal.bot_mul_bot]; exact top_ne_bot
  | top => rw [Ideal.log_top, EReal.top_mul_top]; exact top_ne_bot
  | coe r =>
    rw [Ideal.log_coe]
    split_ifs with h
    · rcases lt_or_eq_of_le h with h | h
      · rw [EReal.coe_mul_bot_of_neg h]; exact top_ne_bot
      · subst h; rw [EReal.coe_zero, zero_mul]; exact EReal.zero_ne_bot
    · rw [← EReal.coe_mul]; exact EReal.coe_ne_bot _

/-- A finite sum of terms none of which is bottom is not bottom. -/
theorem sum_ne_bot {ι : Type*} (s : Finset ι) (f : ι → EReal) (h : ∀ i ∈ s, f i ≠ ⊥) :
    ∑ i ∈ s, f i ≠ ⊥ := by
  classical
  induction s using Finset.induction_on with
  | empty => rw [Finset.sum_empty]; exact EReal.zero_ne_bot
  | insert a s ha ih =>
    rw [Finset.sum_insert ha]
    exact EReal.add_ne_bot_iff.mpr
      ⟨h a (Finset.mem_insert_self a s), ih fun i hi => h i (Finset.mem_insert_of_mem hi)⟩

/-- For terms none of which is bottom, the sum of the negated terms is the negated sum. -/
theorem sum_neg_eq {ι : Type*} (s : Finset ι) (f : ι → EReal) (h : ∀ i ∈ s, f i ≠ ⊥) :
    ∑ i ∈ s, -(f i) = -(∑ i ∈ s, f i) := by
  classical
  induction s using Finset.induction_on with
  | empty => rw [Finset.sum_empty, Finset.sum_empty, neg_zero]
  | insert a s ha ih =>
    have hs : ∀ i ∈ s, f i ≠ ⊥ := fun i hi => h i (Finset.mem_insert_of_mem hi)
    rw [Finset.sum_insert ha, Finset.sum_insert ha, ih hs,
      EReal.neg_add (Or.inl (h a (Finset.mem_insert_self a s))) (Or.inr (sum_ne_bot s f hs)),
      sub_eq_add_neg]

/-- Negating each term, summing, and negating the sum gives back the plain sum. -/
theorem neg_sum_neg {ι : Type*} (s : Finset ι) (f : ι → EReal) (h : ∀ i ∈ s, f i ≠ ⊥) :
    -(∑ i ∈ s, -(f i)) = ∑ i ∈ s, f i := by
  rw [sum_neg_eq s f h, neg_neg]

/-- The float word 0x46000000 denotes the real 8192. -/
theorem ofBits_8192 : Ideal.ofBits .f32 0x46000000#32 = ((8192 : ℝ) : EReal) := by
  simp [Ideal.ofBits, Ideal.ieee, -EReal.coe_mul]; norm_num

/-- Division by 8192 commutes with negation. -/
theorem div_neg_8192 (x : EReal) :
    Ideal.div (-x) (Ideal.ofBits .f32 0x46000000#32)
      = -(Ideal.div x (Ideal.ofBits .f32 0x46000000#32)) := by
  rw [ofBits_8192, Ideal.div_coe (by norm_num : (8192 : ℝ) ≠ 0),
    Ideal.div_coe (by norm_num : (8192 : ℝ) ≠ 0), EReal.neg_mul]

/-- The reference program read at the extended reals: negating each row sum, summing the negated
    rows, dividing by 8192 and negating again is the total sum of p * log p divided by 8192.
    The outer reduction is into the rank-0 shape, so every row index reduces to its one index;
    the row sums merge into the sum over all elements, fibre by fibre of the row map. -/
theorem ref_entropy {s3 s2 : Shape} {ax3 : List (Fin s3.rank)} {ax2 : List (Fin s2.rank)}
    (h3 : s3.ReducesTo ax3 s2) (h2 : s2.ReducesTo ax2 ⟨0, ![]⟩) (hu : 0 < (⟨0, ![]⟩ : Shape).numel)
    (a0 : FVec Ideal s3 .f32) (j : (⟨0, ![]⟩ : Shape).Idx) :
    Host.negf (Host.divf (Host.reduceAdd (Host.negf (Host.reduceAdd (mulf a0 (Host.log a0)) (constant (F := Ideal) ⟨0, ![]⟩ .f32 0x00000000#32) h3 hu)) (constant (F := Ideal) ⟨0, ![]⟩ .f32 0x00000000#32) h2 hu) (constant (F := Ideal) ⟨0, ![]⟩ .f32 0x46000000#32)) j
      = Ideal.div (∑ i : s3.Idx, a0 i * Ideal.log (a0 i)) (Ideal.ofBits .f32 0x46000000#32) := by
  show -(Ideal.div (Ideal.hostReduceAdd h2 (fun i => -(Ideal.hostReduceAdd h3
      (fun k => a0 k * Ideal.log (a0 k)) (Ideal.ofBits .f32 0x00000000#32) i))
      (Ideal.ofBits .f32 0x00000000#32) j) (Ideal.ofBits .f32 0x46000000#32)) = _
  rw [Ideal.hostReduceAdd_total h2 (fun b => b.elim0), Ideal.ofBits_zero_f32, zero_add]
  unfold Ideal.hostReduceAdd
  simp only [zero_add]
  rw [sum_neg_eq Finset.univ _
      (fun i _ => sum_ne_bot _ _ (fun k _ => mul_log_ne_bot (a0 k))),
    div_neg_8192, neg_neg, Finset.sum_fiberwise]

end Cert.EntropyAlg

end
-- ==== Proof.KernelTile.lean ====
/-
  One tile of the entropy sum, read at the extended reals.

  The tile step takes a 64 x 32000 block x and a carried value acc and returns
  acc + (sum over the block of p * log p): the lane sums over the second axis give one value per
  row, the 64 row values are viewed as a 64 x 1 block and summed into a single value, and that
  value is added to the carried one. A sum of the fibre sums of a map is the sum over its whole
  domain, and a reshape is a bijection of index sets, so the two stages merge into the one sum.
-/
import proofs.«101234_j55662776156760_1_alg».proof.Proof.Gen.KernelIdeal.Skeleton
import proofs.«101234_j55662776156760_1_alg».proof.Proof.EntropyAlgebra
import Idealize.ShloMosaic.Lib.Pipeline.Value
import Idealize.ShloMosaic.Lib.ValueIdx

noncomputable section

namespace Cert.KernelIdeal.KTile

open Idealize.ShloMosaic
open Cert.KernelIdeal Cert.KernelIdeal.Gen

/-- Summing, over the reduced indices, the sums over the fibres of the drop map gives the sum
    over every source index. -/
theorem sum_reduceAdd {s t : Shape} {axes : List (Fin s.rank)} (h : s.Reduces axes t)
    (f : s.Idx → EReal) : ∑ r : t.Idx, Ideal.reduceAdd h f r = ∑ i : s.Idx, f i := by
  unfold Ideal.reduceAdd
  exact Finset.sum_fiberwise Finset.univ h.drop f

/-- So the lane sums of a float add reduction, summed over the reduced indices, give the sum
    over every source index. -/
theorem sum_multiReduction_add {φ : FTy} {s t : Shape} {axes : List (Fin s.rank)}
    (src : FVec Ideal s φ) (acc : BitVec φ.bits) (h : s.Reduces axes t) (hφ : FKind.Formats φ)
    (hacc : acc = FKind.add.neutral φ hφ) :
    ∑ r : t.Idx, multiReduction .add axes t src acc h hφ hacc r = ∑ i : s.Idx, src i :=
  sum_reduceAdd h src

/-- A reshape is a bijection of index sets, so it does not change the total sum. -/
theorem sum_shapeCast {s t : Shape} (h : s.ShapeCasts t) (v : s.Idx → EReal) :
    ∑ i : t.Idx, shapeCast t v h i = ∑ r : s.Idx, v r :=
  Equiv.sum_comp (Shape.reshapeEquiv h) v

/-- The tile step: the carried value plus the sum over the block of p * log p. -/
theorem step_apply (x : Vec Ideal S64x32000 .f32) (acc : Vec Ideal S1x1 .f32) (j : S1x1.Idx) :
    k0_pay2 (F := Ideal) x acc j = acc j + ∑ i : S64x32000.Idx, x i * Ideal.log (x i) := by
  unfold k0_pay2
  simp only [shapeCast_self]
  show acc j + _ = acc j + _
  refine congrArg (fun z => acc j + z) ?_
  show multiReduction (F := Ideal) FKind.add [0] S1 _ _ _ _ _
    (Shape.reshapeEquiv shapeCasts_S1_S1x1 j) = _
  refine (Ideal.multiReduction_add_total _ _ reduces_S64x1_S1 (by decide) _ _ _).trans ?_
  refine (sum_shapeCast shapeCasts_S64_S64x1 _).trans ?_
  refine (sum_multiReduction_add _ _ reduces_S64x32000_S64 _ _).trans ?_
  exact Finset.sum_congr rfl fun i _ => rfl

/-- The initial carried value is zero. -/
theorem zero_apply (j : S1x1.Idx) : k0_pay1 (F := Ideal) j = 0 := by
  unfold k0_pay1
  simp only [shapeCast_self]
  show Ideal.ofBits .f32 0x00000000#32 = 0
  exact Ideal.ofBits_zero_f32

end Cert.KernelIdeal.KTile

end
-- ==== Proof.KernelSum.lean ====
import proofs.«101234_j55662776156760_1_alg».proof.Proof.Gen.KernelIdeal.Frame
import Idealize.ShloMosaic.Lib.Pipeline.Value
import Idealize.ShloMosaic.Lib.Tactic
import proofs.«101234_j55662776156760_1_alg».proof.Proof.KernelBlocks
import proofs.«101234_j55662776156760_1_alg».proof.Proof.KernelTile
/-!
# The kernel's output over the extended reals

Read at the exact instance, one step of the body adds to the carried value the sum of p * log p over the point's
block; the carried value starts at zero. So the total after the last point is the sum over the 128 blocks, which
is the sum of p * log p over every element of the argument, and the host's quotient after the region divides that
by 8192.
-/

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- The block of point k, the argument and the output array as arrays of extended reals. -/
abbrev blkAt (c : Dev nD) (k : ℕ) (hk : k < cfg0.N) : Vec Ideal S64x32000 .f32 := iblk m c 0 ⟨k, hk⟩
abbrev arg0 (c : Dev nD) : Vec Ideal S16x512x32000 .f32 := m ((c : Thread nD τ).loc main_arg0)
abbrev res (c : Dev nD) : Vec Ideal S1x1 .f32 := result m c

/-- The summand. -/
def plogp (p : Ideal .f32) : Ideal .f32 := p * Ideal.log p

/-- The sum of p * log p over the block of point k (zero beyond the grid). -/
def tileAt (c : Dev nD) (k : ℕ) : Ideal .f32 :=
  if hk : k < cfg0.N then ∑ i : S64x32000.Idx, plogp (blkAt m c k hk i) else 0

/-- The running total after point n is the sum of the blocks' sums up to n. -/
theorem total_apply (c : Dev nD) : ∀ (n : ℕ) (h : n < cfg0.N) (j : S1x1.Idx),
    (total m c n h : Vec Ideal S1x1 .f32) j = ∑ k ∈ Finset.range (n + 1), tileAt m c k
  | 0, h, j => by
    show k0_pay2 (F := Ideal) (blkAt m c 0 h) _ j = _
    rw [KTile.step_apply, KTile.zero_apply, zero_add, Finset.sum_range_one, tileAt, dif_pos h]
    rfl
  | n + 1, h, j => by
    show k0_pay2 (F := Ideal) (blkAt m c (n + 1) h) (total m c n _) j = _
    rw [KTile.step_apply, total_apply c n _ j, Finset.sum_range_succ _ (n + 1), tileAt, dif_pos h]
    rfl

/-- The output element: the sum of p * log p over every element of the argument. -/
theorem result_apply (c : Dev nD) (j : S1x1.Idx) :
    res m c j = ∑ i : S16x512x32000.Idx, plogp (arg0 m c i) := by
  show (total m c 127 lastN : Vec Ideal S1x1 .f32) j = _
  rw [total_apply]
  refine Eq.trans ?_ (sum_blocks m c plogp)
  rw [← Fin.sum_univ_eq_sum_range (fun k => tileAt m c k) 128]
  exact Finset.sum_congr rfl fun t _ => by rw [tileAt, dif_pos (pt t).isLt]

/-- The host's quotient after the region, at its one index. -/
theorem entropy_apply (c : Dev nD) (j : S_.Idx) :
    Host.divf (F := Ideal) (shapeCast S_ (res m c) shapeCasts_S1x1_S_) (constant S_ .f32 0x46000000#32) j
      = Ideal.div (∑ i : S16x512x32000.Idx, arg0 m c i * Ideal.log (arg0 m c i)) (Ideal.ofBits .f32 0x46000000#32) := by
  show Ideal.div (res m c (Shape.reshapeEquiv shapeCasts_S1x1_S_ j)) (Ideal.ofBits .f32 0x46000000#32) = _
  rw [result_apply]
  rfl

end Cert.KernelIdeal.KVal

end
-- ==== Proof.RefOps.lean ====
/- The reference program's @main as the LIST of its 84 host operations, the three module-local functions'
   bodies listed inline over their calls' buffers, and its run read back: every weakly fair execution terminates
   with each TensorCore buffer at the fold of the operations' results over its launch contents. The list is cut
   where the later comparison needs it: `headOps` (68 operations, through `main_v34`) and `tailOps` (16 operations,
   through the result `main_v45`). -/
import proofs.«101234_j55662776156760_1_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch (a stretch ends where a module-local function's body begins or ends) -/

/-- @main's first two operations (the difference of the second and third arguments' successors, the logarithm). -/
abbrev head0 : List (HloOp τ sig (Elt F)) :=
  [ StableHlo.binary main_arg2 main_arg3 main_v0 (subf : (⟨S16x512, .f32⟩ : BufTy).Contents (Elt F) → (⟨S16x512, .f32⟩ : BufTy).Contents (Elt F) → (⟨S16x512, .f32⟩ : BufTy).Contents (Elt F)),
    StableHlo.unary main_arg1 main_v1 (Host.log : (⟨S16x512, .f32⟩ : BufTy).Contents (Elt F) → (⟨S16x512, .f32⟩ : BufTy).Contents (Elt F)) ]
theorem head0_sub : (head0 : List (HloOp τ sig (Elt F))).Forall fun op => op.bufs ⊆ tcRefs τ sig :=
  ⟨binary_bufs_sub .., unary_bufs_sub ..⟩
theorem head0_fresh : (head0 : List (HloOp τ sig (Elt F))).Forall fun op => op.fresh = ∅ :=
  ⟨rfl, rfl⟩

/-- The three operations of the cumulative sum's body, over its call's buffers. -/
abbrev head1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_arg4 : StableHlo.TRef sig ⟨S16x512, .i32⟩) (.of main_call0_call0_v0 : StableHlo.TRef sig ⟨S_, .i32⟩) (.of main_v2 : StableHlo.TRef sig ⟨S16x512, .i32⟩) (fun x v => Host.reduceWindow IntOp.addi ![1, 512] ![1, 1] ![0, 511] ![0, 0] x v reduceWindows_S16x512_S16x512_w1s1p0_0_w512s1p511_0 h_S_) ]
theorem head1_sub : (head1 : List (HloOp τ sig (Elt F))).Forall fun op => op.bufs ⊆ tcRefs τ sig :=
  ⟨nullary_bufs_sub .., unary_bufs_sub .., binary_bufs_sub ..⟩
theorem head1_fresh : (head1 : List (HloOp τ sig (Elt F))).Forall fun op => op.fresh = ∅ :=
  ⟨rfl, rfl, rfl⟩

/-- @main's next fifteen operations: the flat positions, the scatter-add into the zero table, its reshape. -/
abbrev head2 : List (HloOp τ sig (Elt F)) :=
  [ StableHlo.binary main_v2 main_arg4 main_v3 (subi : (⟨S16x512, .i32⟩ : BufTy).Contents (Elt F) → (⟨S16x512, .i32⟩ : BufTy).Contents (Elt F) → (⟨S16x512, .i32⟩ : BufTy).Contents (Elt F)),
    StableHlo.nullary main_v4 (iotaInDim S16 32 0),
    StableHlo.unary main_v4 main_v5 (broadcastInDim S16x1 ![0] bcast_S16_S16x1_0 : (⟨S16, .i32⟩ : BufTy).Contents (Elt F) → (⟨S16x1, .i32⟩ : BufTy).Contents (Elt F)),
    StableHlo.nullary main_c (constantI S_ 32 513#32),
    StableHlo.unary main_c main_v6 (broadcastInDim S16x1 ![] bcast_S_S16x1 : (⟨S_, .i32⟩ : BufTy).Contents (Elt F) → (⟨S16x1, .i32⟩ : BufTy).Contents (Elt F)),
    StableHlo.binary main_v5 main_v6 main_v7 (muli : (⟨S16x1, .i32⟩ : BufTy).Contents (Elt F) → (⟨S16x1, .i32⟩ : BufTy).Contents (Elt F) → (⟨S16x1, .i32⟩ : BufTy).Contents (Elt F)),
    StableHlo.unary main_v7 main_v8 (broadcastInDim S16x512 ![0, 1] bcast_S16x1_S16x512_0_1 : (⟨S16x1, .i32⟩ : BufTy).Contents (Elt F) → (⟨S16x512, .i32⟩ : BufTy).Contents (Elt F)),
    StableHlo.binary main_v8 main_v3 main_v9 (addi : (⟨S16x512, .i32⟩ : BufTy).Contents (Elt F) → (⟨S16x512, .i32⟩ : BufTy).Contents (Elt F) → (⟨S16x512, .i32⟩ : BufTy).Contents (Elt F)),
    StableHlo.reshape main_v9 main_v10 rfl shapeCasts_S16x512_S8192,
    StableHlo.reshape main_v1 main_v11 rfl shapeCasts_S16x512_S8192,
    StableHlo.nullary main_cst (constant S_ .f32 0x00000000#32),
    StableHlo.unary main_cst main_v12 (broadcastInDim S8208 ![] bcast_S_S8208 : (⟨S_, .f32⟩ : BufTy).Contents (Elt F) → (⟨S8208, .f32⟩ : BufTy).Contents (Elt F)),
    StableHlo.unary main_v10 main_v13 (broadcastInDim S8192x1 ![0] bcast_S8192_S8192x1_0 : (⟨S8192, .i32⟩ : BufTy).Contents (Elt F) → (⟨S8192x1, .i32⟩ : BufTy).Contents (Elt F)),
    StableHlo.ternary main_v12 main_v13 main_v11 main_v14 ((fun x i u => Host.scatterAdd scatter_S8208_S8192x1_S8192_n_0_0_1 x i u) : (⟨S8208, .f32⟩ : BufTy).Contents (Elt F) → (⟨S8192x1, .i32⟩ : BufTy).Contents (Elt F) → (⟨S8192, .f32⟩ : BufTy).Contents (Elt F) → (⟨S8208, .f32⟩ : BufTy).Contents (Elt F)),
    StableHlo.reshape main_v14 main_v15 rfl shapeCasts_S8208_S16x513 ]
theorem head2_sub : (head2 : List (HloOp τ sig (Elt F))).Forall fun op => op.bufs ⊆ tcRefs τ sig :=
  ⟨binary_bufs_sub .., nullary_bufs_sub .., unary_bufs_sub .., nullary_bufs_sub .., unary_bufs_sub .., binary_bufs_sub .., unary_bufs_sub .., binary_bufs_sub .., reshape_bufs_sub .., reshape_bufs_sub .., nullary_bufs_sub .., unary_bufs_sub .., unary_bufs_sub .., ternary_bufs_sub .., reshape_bufs_sub ..⟩
theorem head2_fresh : (head2 : List (HloOp τ sig (Elt F))).Forall fun op => op.fresh = ∅ :=
  ⟨rfl, rfl, rfl, rfl, rfl, rfl, rfl, rfl, rfl, rfl, rfl, rfl, rfl, rfl, rfl⟩

/-- The twenty-two operations of the gather along the last axis, over its call's buffers. -/
abbrev head3 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16x512, .i32⟩) (broadcastInDim S16x512 ![] bcast_S_S16x512),
    StableHlo.TRef.binary (.of main_v3 : StableHlo.TRef sig ⟨S16x512, .i32⟩) (.of main_call1_v0 : StableHlo.TRef sig ⟨S16x512, .i32⟩) (.of main_call1_v1 : StableHlo.TRef sig ⟨S16x512, .i1⟩) (cmpi .slt),
    StableHlo.TRef.nullary (.of main_call1_c_0 : StableHlo.TRef sig ⟨S_, .i32⟩) (constantI S_ 32 513#32),
    StableHlo.TRef.unary (.of main_call1_c_0 : StableHlo.TRef sig ⟨S_, .i32⟩) (.of main_call1_v2 : StableHlo.TRef sig ⟨S16x512, .i32⟩) (broadcastInDim S16x512 ![] bcast_S_S16x512),
    StableHlo.TRef.binary (.of main_v3 : StableHlo.TRef sig ⟨S16x512, .i32⟩) (.of main_call1_v2 : StableHlo.TRef sig ⟨S16x512, .i32⟩) (.of main_call1_v3 : StableHlo.TRef sig ⟨S16x512, .i32⟩) addi,
    StableHlo.TRef.ternary (.of main_call1_v1 : StableHlo.TRef sig ⟨S16x512, .i1⟩) (.of main_call1_v3 : StableHlo.TRef sig ⟨S16x512, .i32⟩) (.of main_v3 : StableHlo.TRef sig ⟨S16x512, .i32⟩) (.of main_call1_v4 : StableHlo.TRef sig ⟨S16x512, .i32⟩) select,
    StableHlo.TRef.reshape (.of main_call1_v4 : StableHlo.TRef sig ⟨S16x512, .i32⟩) (.of main_call1_v5 : StableHlo.TRef sig ⟨S16x512x1, .i32⟩) rfl shapeCasts_S16x512_S16x512x1,
    StableHlo.TRef.nullary (.of main_call1_c_1 : StableHlo.TRef sig ⟨S1, .i32⟩) (constantI S1 32 512#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16x512x1, .i32⟩) (broadcastInDim S16x512x1 ![] bcast_S_S16x512x1),
    StableHlo.TRef.binary (.of main_call1_v5 : StableHlo.TRef sig ⟨S16x512x1, .i32⟩) (.of main_call1_v6 : StableHlo.TRef sig ⟨S16x512x1, .i32⟩) (.of main_call1_v7 : StableHlo.TRef sig ⟨S16x512x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16x512x1, .i32⟩) (broadcastInDim S16x512x1 ![0, 1, 2] bcast_S1x1x1_S16x512x1_0_1_2),
    StableHlo.TRef.binary (.of main_call1_v5 : StableHlo.TRef sig ⟨S16x512x1, .i32⟩) (.of main_call1_v9 : StableHlo.TRef sig ⟨S16x512x1, .i32⟩) (.of main_call1_v10 : StableHlo.TRef sig ⟨S16x512x1, .i1⟩) (cmpi .sle),
    StableHlo.TRef.binary (.of main_call1_v7 : StableHlo.TRef sig ⟨S16x512x1, .i1⟩) (.of main_call1_v10 : StableHlo.TRef sig ⟨S16x512x1, .i1⟩) (.of main_call1_v11 : StableHlo.TRef sig ⟨S16x512x1, .i1⟩) andi,
    StableHlo.TRef.nullary (.of main_call1_c_3 : StableHlo.TRef sig ⟨S_, .i1⟩) (constantI S_ 1 1#1),
    StableHlo.TRef.binary (.of main_call1_v11 : StableHlo.TRef sig ⟨S16x512x1, .i1⟩) (.of main_call1_c_3 : StableHlo.TRef sig ⟨S_, .i1⟩) (.of main_call1_v12 : StableHlo.TRef sig ⟨S16x512, .i1⟩) (fun x v => Host.reduce IntOp.andi x v reducesTo_S16x512x1_S16x512_d2 h_S_),
    StableHlo.TRef.binary (.of main_v15 : StableHlo.TRef sig ⟨S16x513, .f32⟩) (.of main_call1_v5 : StableHlo.TRef sig ⟨S16x512x1, .i32⟩) (.of main_call1_v13 : StableHlo.TRef sig ⟨S16x512, .f32⟩) (fun x i => Host.gather gather_S16x513_S16x512x1_S16x512_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S16x512, .f32⟩) (broadcastInDim S16x512 ![] bcast_S_S16x512),
    StableHlo.TRef.ternary (.of main_call1_v12 : StableHlo.TRef sig ⟨S16x512, .i1⟩) (.of main_call1_v13 : StableHlo.TRef sig ⟨S16x512, .f32⟩) (.of main_call1_v14 : StableHlo.TRef sig ⟨S16x512, .f32⟩) (.of main_v16 : StableHlo.TRef sig ⟨S16x512, .f32⟩) select ]
theorem head3_sub : (head3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem head3_fresh : (head3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- @main's next thirteen operations: the row sums, the mask of the last position, the zero constant. -/
abbrev head4 : List (HloOp τ sig (Elt F)) :=
  [ StableHlo.nullary main_c_0 (constantI S_ 32 0#32),
    StableHlo.binary main_arg4 main_c_0 main_v17 ((fun x v => Host.reduce IntOp.addi x v reducesTo_S16x512_S16_d1 h_S_) : (⟨S16x512, .i32⟩ : BufTy).Contents (Elt F) → (⟨S_, .i32⟩ : BufTy).Contents (Elt F) → (⟨S16, .i32⟩ : BufTy).Contents (Elt F)),
    StableHlo.unary main_v17 main_v18 (broadcastInDim S16x1 ![0] bcast_S16_S16x1_0 : (⟨S16, .i32⟩ : BufTy).Contents (Elt F) → (⟨S16x1, .i32⟩ : BufTy).Contents (Elt F)),
    StableHlo.unary main_v18 main_v19 (broadcastInDim S16x512 ![0, 1] bcast_S16x1_S16x512_0_1 : (⟨S16x1, .i32⟩ : BufTy).Contents (Elt F) → (⟨S16x512, .i32⟩ : BufTy).Contents (Elt F)),
    StableHlo.binary main_v3 main_v19 main_v20 (cmpi .eq : (⟨S16x512, .i32⟩ : BufTy).Contents (Elt F) → (⟨S16x512, .i32⟩ : BufTy).Contents (Elt F) → (⟨S16x512, .i1⟩ : BufTy).Contents (Elt F)),
    StableHlo.nullary main_v21 (iotaInDim S16 32 0),
    StableHlo.unary main_v21 main_v22 (broadcastInDim S16x1 ![0] bcast_S16_S16x1_0 : (⟨S16, .i32⟩ : BufTy).Contents (Elt F) → (⟨S16x1, .i32⟩ : BufTy).Contents (Elt F)),
    StableHlo.nullary main_c_1 (constantI S_ 32 15#32),
    StableHlo.unary main_c_1 main_v23 (broadcastInDim S16x1 ![] bcast_S_S16x1 : (⟨S_, .i32⟩ : BufTy).Contents (Elt F) → (⟨S16x1, .i32⟩ : BufTy).Contents (Elt F)),
    StableHlo.binary main_v22 main_v23 main_v24 (cmpi .eq : (⟨S16x1, .i32⟩ : BufTy).Contents (Elt F) → (⟨S16x1, .i32⟩ : BufTy).Contents (Elt F) → (⟨S16x1, .i1⟩ : BufTy).Contents (Elt F)),
    StableHlo.unary main_v24 main_v25 (broadcastInDim S16x512 ![0, 1] bcast_S16x1_S16x512_0_1 : (⟨S16x1, .i1⟩ : BufTy).Contents (Elt F) → (⟨S16x512, .i1⟩ : BufTy).Contents (Elt F)),
    StableHlo.binary main_v20 main_v25 main_v26 (andi : (⟨S16x512, .i1⟩ : BufTy).Contents (Elt F) → (⟨S16x512, .i1⟩ : BufTy).Contents (Elt F) → (⟨S16x512, .i1⟩ : BufTy).Contents (Elt F)),
    StableHlo.nullary main_cst_2 (constant S_ .f32 0x00000000#32) ]
theorem head4_sub : (head4 : List (HloOp τ sig (Elt F))).Forall fun op => op.bufs ⊆ tcRefs τ sig :=
  ⟨nullary_bufs_sub .., binary_bufs_sub .., unary_bufs_sub .., unary_bufs_sub .., binary_bufs_sub .., nullary_bufs_sub .., unary_bufs_sub .., nullary_bufs_sub .., unary_bufs_sub .., binary_bufs_sub .., unary_bufs_sub .., binary_bufs_sub .., nullary_bufs_sub ..⟩
theorem head4_fresh : (head4 : List (HloOp τ sig (Elt F))).Forall fun op => op.fresh = ∅ :=
  ⟨rfl, rfl, rfl, rfl, rfl, rfl, rfl, rfl, rfl, rfl, rfl, rfl, rfl⟩

/-- The two operations of the select's body, over its call's buffers. -/
abbrev head5 : List (HloOp τ sig (Elt F)) :=
  [ StableHlo.TRef.unary (.of main_cst_2 : StableHlo.TRef sig ⟨S_, .f32⟩) (.of main_call2_v0 : StableHlo.TRef sig ⟨S16x512, .f32⟩) (broadcastInDim S16x512 ![] bcast_S_S16x512),
    StableHlo.TRef.ternary (.of main_v26 : StableHlo.TRef sig ⟨S16x512, .i1⟩) (.of main_call2_v0 : StableHlo.TRef sig ⟨S16x512, .f32⟩) (.of main_v16 : StableHlo.TRef sig ⟨S16x512, .f32⟩) (.of main_v27 : StableHlo.TRef sig ⟨S16x512, .f32⟩) select ]
theorem head5_sub : (head5 : List (HloOp τ sig (Elt F))).Forall fun op => op.bufs ⊆ tcRefs τ sig :=
  ⟨unary_bufs_sub .., ternary_bufs_sub ..⟩
theorem head5_fresh : (head5 : List (HloOp τ sig (Elt F))).Forall fun op => op.fresh = ∅ :=
  ⟨rfl, rfl⟩

/-- @main's next eleven operations: the two means over all positions, through `main_v34`. -/
abbrev head6 : List (HloOp τ sig (Elt F)) :=
  [ StableHlo.binary main_v0 main_v27 main_v28 (mulf : (⟨S16x512, .f32⟩ : BufTy).Contents (Elt F) → (⟨S16x512, .f32⟩ : BufTy).Contents (Elt F) → (⟨S16x512, .f32⟩ : BufTy).Contents (Elt F)),
    StableHlo.nullary main_cst_3 (constant S_ .f32 0x00000000#32),
    StableHlo.binary main_v28 main_cst_3 main_v29 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    StableHlo.nullary main_cst_4 (constant S_ .f32 0x46000000#32),
    StableHlo.binary main_v29 main_cst_4 main_v30 (Host.divf : (⟨S_, .f32⟩ : BufTy).Contents (Elt F) → (⟨S_, .f32⟩ : BufTy).Contents (Elt F) → (⟨S_, .f32⟩ : BufTy).Contents (Elt F)),
    StableHlo.unary main_v30 main_v31 (Host.negf : (⟨S_, .f32⟩ : BufTy).Contents (Elt F) → (⟨S_, .f32⟩ : BufTy).Contents (Elt F)),
    StableHlo.binary main_v0 main_v0 main_v32 (mulf : (⟨S16x512, .f32⟩ : BufTy).Contents (Elt F) → (⟨S16x512, .f32⟩ : BufTy).Contents (Elt F) → (⟨S16x512, .f32⟩ : BufTy).Contents (Elt F)),
    StableHlo.nullary main_cst_5 (constant S_ .f32 0x00000000#32),
    StableHlo.binary main_v32 main_cst_5 main_v33 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    StableHlo.nullary main_cst_6 (constant S_ .f32 0x46000000#32),
    StableHlo.binary main_v33 main_cst_6 main_v34 (Host.divf : (⟨S_, .f32⟩ : BufTy).Contents (Elt F) → (⟨S_, .f32⟩ : BufTy).Contents (Elt F) → (⟨S_, .f32⟩ : BufTy).Contents (Elt F)) ]
theorem head6_sub : (head6 : List (HloOp τ sig (Elt F))).Forall fun op => op.bufs ⊆ tcRefs τ sig :=
  ⟨binary_bufs_sub .., nullary_bufs_sub .., binary_bufs_sub .., nullary_bufs_sub .., binary_bufs_sub .., unary_bufs_sub .., binary_bufs_sub .., nullary_bufs_sub .., binary_bufs_sub .., nullary_bufs_sub .., binary_bufs_sub ..⟩
theorem head6_fresh : (head6 : List (HloOp τ sig (Elt F))).Forall fun op => op.fresh = ∅ :=
  ⟨rfl, rfl, rfl, rfl, rfl, rfl, rfl, rfl, rfl, rfl, rfl⟩

/-- @main's last sixteen operations: the entropy of the first argument and the weighted sum, through `main_v45`. -/
abbrev tailOps : List (HloOp τ sig (Elt F)) :=
  [ StableHlo.unary main_arg0 main_v35 (Host.log : (⟨S16x512x32000, .f32⟩ : BufTy).Contents (Elt F) → (⟨S16x512x32000, .f32⟩ : BufTy).Contents (Elt F)),
    StableHlo.binary main_arg0 main_v35 main_v36 (mulf : (⟨S16x512x32000, .f32⟩ : BufTy).Contents (Elt F) → (⟨S16x512x32000, .f32⟩ : BufTy).Contents (Elt F) → (⟨S16x512x32000, .f32⟩ : BufTy).Contents (Elt F)),
    StableHlo.nullary main_cst_7 (constant S_ .f32 0x00000000#32),
    StableHlo.binary main_v36 main_cst_7 main_v37 ((fun x v => Host.reduceAdd x v reducesTo_S16x512x32000_S16x512_d2 h_S_) : (⟨S16x512x32000, .f32⟩ : BufTy).Contents (Elt F) → (⟨S_, .f32⟩ : BufTy).Contents (Elt F) → (⟨S16x512, .f32⟩ : BufTy).Contents (Elt F)),
    StableHlo.unary main_v37 main_v38 (Host.negf : (⟨S16x512, .f32⟩ : BufTy).Contents (Elt F) → (⟨S16x512, .f32⟩ : BufTy).Contents (Elt F)),
    StableHlo.nullary main_cst_8 (constant S_ .f32 0x00000000#32),
    StableHlo.binary main_v38 main_cst_8 main_v39 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    StableHlo.nullary main_cst_9 (constant S_ .f32 0x46000000#32),
    StableHlo.binary main_v39 main_cst_9 main_v40 (Host.divf : (⟨S_, .f32⟩ : BufTy).Contents (Elt F) → (⟨S_, .f32⟩ : BufTy).Contents (Elt F) → (⟨S_, .f32⟩ : BufTy).Contents (Elt F)),
    StableHlo.unary main_v40 main_v41 (Host.negf : (⟨S_, .f32⟩ : BufTy).Contents (Elt F) → (⟨S_, .f32⟩ : BufTy).Contents (Elt F)),
    StableHlo.nullary main_cst_10 (constant S_ .f32 0x3F000000#32),
    StableHlo.binary main_cst_10 main_v34 main_v42 (mulf : (⟨S_, .f32⟩ : BufTy).Contents (Elt F) → (⟨S_, .f32⟩ : BufTy).Contents (Elt F) → (⟨S_, .f32⟩ : BufTy).Contents (Elt F)),
    StableHlo.binary main_v31 main_v42 main_v43 (addf : (⟨S_, .f32⟩ : BufTy).Contents (Elt F) → (⟨S_, .f32⟩ : BufTy).Contents (Elt F) → (⟨S_, .f32⟩ : BufTy).Contents (Elt F)),
    StableHlo.nullary main_cst_11 (constant S_ .f32 0x3BA3D70A#32),
    StableHlo.binary main_cst_11 main_v41 main_v44 (mulf : (⟨S_, .f32⟩ : BufTy).Contents (Elt F) → (⟨S_, .f32⟩ : BufTy).Contents (Elt F) → (⟨S_, .f32⟩ : BufTy).Contents (Elt F)),
    StableHlo.binary main_v43 main_v44 main_v45 (addf : (⟨S_, .f32⟩ : BufTy).Contents (Elt F) → (⟨S_, .f32⟩ : BufTy).Contents (Elt F) → (⟨S_, .f32⟩ : BufTy).Contents (Elt F)) ]
theorem tailOps_sub : (tailOps : List (HloOp τ sig (Elt F))).Forall fun op => op.bufs ⊆ tcRefs τ sig :=
  ⟨unary_bufs_sub .., binary_bufs_sub .., nullary_bufs_sub .., binary_bufs_sub .., unary_bufs_sub .., nullary_bufs_sub .., binary_bufs_sub .., nullary_bufs_sub .., binary_bufs_sub .., unary_bufs_sub .., nullary_bufs_sub .., binary_bufs_sub .., binary_bufs_sub .., nullary_bufs_sub .., binary_bufs_sub .., binary_bufs_sub ..⟩
theorem tailOps_fresh : (tailOps : List (HloOp τ sig (Elt F))).Forall fun op => op.fresh = ∅ :=
  ⟨rfl, rfl, rfl, rfl, rfl, rfl, rfl, rfl, rfl, rfl, rfl, rfl, rfl, rfl, rfl, rfl⟩

/-- The 68 operations through `main_v34`, in program order. -/
abbrev headOps : List (HloOp τ sig (Elt F)) :=
  head0 ++ (head1 ++ (head2 ++ (head3 ++ (head4 ++ (head5 ++ head6)))))

/-- @main's 84 operations, in program order. -/
abbrev ops : List (HloOp τ sig (Elt F)) := headOps ++ tailOps

/-! ## @main is that straight line -/

/-- @main is the chain of the stretches: the definitions of @main, of its two windows and of the functions unfold
    at their calls, the records at their fields, and both sides are one sequence of `hlo` steps. -/
theorem main_chain (c : Dev nD) : main (F := F) c = (Pipeline.chain
  [ seq head0, seq head1, seq head2, seq head3, seq head4, seq head5, seq head6, seq tailOps ] : Prog (TpuEff nD τ sig (Elt F) (Pipeline.Sig Λ₀ (Fin 0) fun p => (pcfgs (F := F) p).Adm) .tc) PUnit) := by
  chain_rfl

/-- The chain of the stretches' lines is the line of their concatenation (`seq_append`, sequencing reassociated). -/
theorem main_eq (c : Dev nD) : main (F := F) c = seq ops := by
  rw [main_chain c]
  simp only [ops, headOps, seq_append, Pipeline.chain_cons, Pipeline.chain_nil, bind_assoc, bind_pure_unit]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.2 ⟨List.forall_append.2 ⟨head0_sub, List.forall_append.2 ⟨head1_sub, List.forall_append.2 ⟨head2_sub,
    List.forall_append.2 ⟨head3_sub, List.forall_append.2 ⟨head4_sub, List.forall_append.2 ⟨head5_sub, head6_sub⟩⟩⟩⟩⟩⟩, tailOps_sub⟩

/-- Every operation determines all it writes. -/
theorem ops_fresh : (ops : List (HloOp τ sig (Elt F))).Forall fun op => op.fresh = ∅ :=
  List.forall_append.2 ⟨List.forall_append.2 ⟨head0_fresh, List.forall_append.2 ⟨head1_fresh, List.forall_append.2 ⟨head2_fresh,
    List.forall_append.2 ⟨head3_fresh, List.forall_append.2 ⟨head4_fresh, List.forall_append.2 ⟨head5_fresh, head6_fresh⟩⟩⟩⟩⟩⟩, tailOps_fresh⟩

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefTail.lean ====
/- The reference's last sixteen operations read as one term of the buffers they start from, and the argument
   buffers, which no operation of @main writes, carried through the fold. -/
import proofs.«101234_j55662776156760_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The tail as a term -/

/-- The result buffer after the last sixteen operations, from contents `W`: the sum of `main_v31`, half of
    `main_v34`, and 0.005 times the negated mean (over the 8192 positions) of the negated row sums of `x · log x`
    at the first argument. Each operation's result read at its own buffer, every other buffer left as it was. -/
theorem tail_v45 (W : Valuation τ sig (Elt F)) : after tailOps W (main_v45 : DevRef τ sig)
    = addf (addf (W (main_v31 : DevRef τ sig)) (mulf (constant S_ .f32 0x3F000000#32) (W (main_v34 : DevRef τ sig))))
        (mulf (constant S_ .f32 0x3BA3D70A#32)
          (Host.negf (Host.divf
            (Host.reduceAdd (Host.negf (Host.reduceAdd (mulf (W (main_arg0 : DevRef τ sig)) (Host.log (W (main_arg0 : DevRef τ sig)))) (constant S_ .f32 0x00000000#32) reducesTo_S16x512x32000_S16x512_d2 h_S_)) (constant S_ .f32 0x00000000#32) reducesTo_S16x512_S_d0_1 h_S_)
            (constant S_ .f32 0x46000000#32)))) := by
  after_results_simp

/-! ## The arguments are not written -/

theorem tail_arg0 (W : Valuation τ sig (Elt F)) : after tailOps W (main_arg0 : DevRef τ sig) = W (main_arg0 : DevRef τ sig) := by
  after_results_simp
theorem tail_arg1 (W : Valuation τ sig (Elt F)) : after tailOps W (main_arg1 : DevRef τ sig) = W (main_arg1 : DevRef τ sig) := by
  after_results_simp
theorem tail_arg2 (W : Valuation τ sig (Elt F)) : after tailOps W (main_arg2 : DevRef τ sig) = W (main_arg2 : DevRef τ sig) := by
  after_results_simp
theorem tail_arg3 (W : Valuation τ sig (Elt F)) : after tailOps W (main_arg3 : DevRef τ sig) = W (main_arg3 : DevRef τ sig) := by
  after_results_simp
theorem tail_arg4 (W : Valuation τ sig (Elt F)) : after tailOps W (main_arg4 : DevRef τ sig) = W (main_arg4 : DevRef τ sig) := by
  after_results_simp

theorem head0_arg0 (W : Valuation τ sig (Elt F)) : after head0 W (main_arg0 : DevRef τ sig) = W (main_arg0 : DevRef τ sig) := by
  after_results_simp
theorem head0_arg1 (W : Valuation τ sig (Elt F)) : after head0 W (main_arg1 : DevRef τ sig) = W (main_arg1 : DevRef τ sig) := by
  after_results_simp
theorem head0_arg2 (W : Valuation τ sig (Elt F)) : after head0 W (main_arg2 : DevRef τ sig) = W (main_arg2 : DevRef τ sig) := by
  after_results_simp
theorem head0_arg3 (W : Valuation τ sig (Elt F)) : after head0 W (main_arg3 : DevRef τ sig) = W (main_arg3 : DevRef τ sig) := by
  after_results_simp
theorem head0_arg4 (W : Valuation τ sig (Elt F)) : after head0 W (main_arg4 : DevRef τ sig) = W (main_arg4 : DevRef τ sig) := by
  after_results_simp
theorem head1_arg0 (W : Valuation τ sig (Elt F)) : after head1 W (main_arg0 : DevRef τ sig) = W (main_arg0 : DevRef τ sig) := by
  after_results_simp
theorem head1_arg1 (W : Valuation τ sig (Elt F)) : after head1 W (main_arg1 : DevRef τ sig) = W (main_arg1 : DevRef τ sig) := by
  after_results_simp
theorem head1_arg2 (W : Valuation τ sig (Elt F)) : after head1 W (main_arg2 : DevRef τ sig) = W (main_arg2 : DevRef τ sig) := by
  after_results_simp
theorem head1_arg3 (W : Valuation τ sig (Elt F)) : after head1 W (main_arg3 : DevRef τ sig) = W (main_arg3 : DevRef τ sig) := by
  after_results_simp
theorem head1_arg4 (W : Valuation τ sig (Elt F)) : after head1 W (main_arg4 : DevRef τ sig) = W (main_arg4 : DevRef τ sig) := by
  after_results_simp
theorem head2_arg0 (W : Valuation τ sig (Elt F)) : after head2 W (main_arg0 : DevRef τ sig) = W (main_arg0 : DevRef τ sig) := by
  after_results_simp
theorem head2_arg1 (W : Valuation τ sig (Elt F)) : after head2 W (main_arg1 : DevRef τ sig) = W (main_arg1 : DevRef τ sig) := by
  after_results_simp
theorem head2_arg2 (W : Valuation τ sig (Elt F)) : after head2 W (main_arg2 : DevRef τ sig) = W (main_arg2 : DevRef τ sig) := by
  after_results_simp
theorem head2_arg3 (W : Valuation τ sig (Elt F)) : after head2 W (main_arg3 : DevRef τ sig) = W (main_arg3 : DevRef τ sig) := by
  after_results_simp
theorem head2_arg4 (W : Valuation τ sig (Elt F)) : after head2 W (main_arg4 : DevRef τ sig) = W (main_arg4 : DevRef τ sig) := by
  after_results_simp
theorem head3_arg0 (W : Valuation τ sig (Elt F)) : after head3 W (main_arg0 : DevRef τ sig) = W (main_arg0 : DevRef τ sig) := by
  after_results_simp
theorem head3_arg1 (W : Valuation τ sig (Elt F)) : after head3 W (main_arg1 : DevRef τ sig) = W (main_arg1 : DevRef τ sig) := by
  after_results_simp
theorem head3_arg2 (W : Valuation τ sig (Elt F)) : after head3 W (main_arg2 : DevRef τ sig) = W (main_arg2 : DevRef τ sig) := by
  after_results_simp
theorem head3_arg3 (W : Valuation τ sig (Elt F)) : after head3 W (main_arg3 : DevRef τ sig) = W (main_arg3 : DevRef τ sig) := by
  after_results_simp
theorem head3_arg4 (W : Valuation τ sig (Elt F)) : after head3 W (main_arg4 : DevRef τ sig) = W (main_arg4 : DevRef τ sig) := by
  after_results_simp
theorem head4_arg0 (W : Valuation τ sig (Elt F)) : after head4 W (main_arg0 : DevRef τ sig) = W (main_arg0 : DevRef τ sig) := by
  after_results_simp
theorem head4_arg1 (W : Valuation τ sig (Elt F)) : after head4 W (main_arg1 : DevRef τ sig) = W (main_arg1 : DevRef τ sig) := by
  after_results_simp
theorem head4_arg2 (W : Valuation τ sig (Elt F)) : after head4 W (main_arg2 : DevRef τ sig) = W (main_arg2 : DevRef τ sig) := by
  after_results_simp
theorem head4_arg3 (W : Valuation τ sig (Elt F)) : after head4 W (main_arg3 : DevRef τ sig) = W (main_arg3 : DevRef τ sig) := by
  after_results_simp
theorem head4_arg4 (W : Valuation τ sig (Elt F)) : after head4 W (main_arg4 : DevRef τ sig) = W (main_arg4 : DevRef τ sig) := by
  after_results_simp
theorem head5_arg0 (W : Valuation τ sig (Elt F)) : after head5 W (main_arg0 : DevRef τ sig) = W (main_arg0 : DevRef τ sig) := by
  after_results_simp
theorem head5_arg1 (W : Valuation τ sig (Elt F)) : after head5 W (main_arg1 : DevRef τ sig) = W (main_arg1 : DevRef τ sig) := by
  after_results_simp
theorem head5_arg2 (W : Valuation τ sig (Elt F)) : after head5 W (main_arg2 : DevRef τ sig) = W (main_arg2 : DevRef τ sig) := by
  after_results_simp
theorem head5_arg3 (W : Valuation τ sig (Elt F)) : after head5 W (main_arg3 : DevRef τ sig) = W (main_arg3 : DevRef τ sig) := by
  after_results_simp
theorem head5_arg4 (W : Valuation τ sig (Elt F)) : after head5 W (main_arg4 : DevRef τ sig) = W (main_arg4 : DevRef τ sig) := by
  after_results_simp
theorem head6_arg0 (W : Valuation τ sig (Elt F)) : after head6 W (main_arg0 : DevRef τ sig) = W (main_arg0 : DevRef τ sig) := by
  after_results_simp
theorem head6_arg1 (W : Valuation τ sig (Elt F)) : after head6 W (main_arg1 : DevRef τ sig) = W (main_arg1 : DevRef τ sig) := by
  after_results_simp
theorem head6_arg2 (W : Valuation τ sig (Elt F)) : after head6 W (main_arg2 : DevRef τ sig) = W (main_arg2 : DevRef τ sig) := by
  after_results_simp
theorem head6_arg3 (W : Valuation τ sig (Elt F)) : after head6 W (main_arg3 : DevRef τ sig) = W (main_arg3 : DevRef τ sig) := by
  after_results_simp
theorem head6_arg4 (W : Valuation τ sig (Elt F)) : after head6 W (main_arg4 : DevRef τ sig) = W (main_arg4 : DevRef τ sig) := by
  after_results_simp

theorem head_arg0 (V : Valuation τ sig (Elt F)) : after headOps V (main_arg0 : DevRef τ sig) = V (main_arg0 : DevRef τ sig) := by
  simp only [headOps, after_append]
  rw [head6_arg0, head5_arg0, head4_arg0, head3_arg0, head2_arg0, head1_arg0, head0_arg0]
theorem head_arg1 (V : Valuation τ sig (Elt F)) : after headOps V (main_arg1 : DevRef τ sig) = V (main_arg1 : DevRef τ sig) := by
  simp only [headOps, after_append]
  rw [head6_arg1, head5_arg1, head4_arg1, head3_arg1, head2_arg1, head1_arg1, head0_arg1]
theorem head_arg2 (V : Valuation τ sig (Elt F)) : after headOps V (main_arg2 : DevRef τ sig) = V (main_arg2 : DevRef τ sig) := by
  simp only [headOps, after_append]
  rw [head6_arg2, head5_arg2, head4_arg2, head3_arg2, head2_arg2, head1_arg2, head0_arg2]
theorem head_arg3 (V : Valuation τ sig (Elt F)) : after headOps V (main_arg3 : DevRef τ sig) = V (main_arg3 : DevRef τ sig) := by
  simp only [headOps, after_append]
  rw [head6_arg3, head5_arg3, head4_arg3, head3_arg3, head2_arg3, head1_arg3, head0_arg3]
theorem head_arg4 (V : Valuation τ sig (Elt F)) : after headOps V (main_arg4 : DevRef τ sig) = V (main_arg4 : DevRef τ sig) := by
  simp only [headOps, after_append]
  rw [head6_arg4, head5_arg4, head4_arg4, head3_arg4, head2_arg4, head1_arg4, head0_arg4]

/-! ## The whole line -/

/-- The result after all of @main: the tail's term at the head's `main_v31` and `main_v34` and the first argument's
    launch contents. -/
theorem ops_v45 (V : Valuation τ sig (Elt F)) : after ops V (main_v45 : DevRef τ sig)
    = addf (addf (after headOps V (main_v31 : DevRef τ sig)) (mulf (constant S_ .f32 0x3F000000#32) (after headOps V (main_v34 : DevRef τ sig))))
        (mulf (constant S_ .f32 0x3BA3D70A#32)
          (Host.negf (Host.divf
            (Host.reduceAdd (Host.negf (Host.reduceAdd (mulf (V (main_arg0 : DevRef τ sig)) (Host.log (V (main_arg0 : DevRef τ sig)))) (constant S_ .f32 0x00000000#32) reducesTo_S16x512x32000_S16x512_d2 h_S_)) (constant S_ .f32 0x00000000#32) reducesTo_S16x512_S_d0_1 h_S_)
            (constant S_ .f32 0x46000000#32)))) := by
  show after (headOps ++ tailOps) V (main_v45 : DevRef τ sig) = _
  rw [after_append, tail_v45, head_arg0]

theorem ops_arg0 (V : Valuation τ sig (Elt F)) : after ops V (main_arg0 : DevRef τ sig) = V (main_arg0 : DevRef τ sig) := by
  show after (headOps ++ tailOps) V (main_arg0 : DevRef τ sig) = _
  rw [after_append, tail_arg0, head_arg0]
theorem ops_arg1 (V : Valuation τ sig (Elt F)) : after ops V (main_arg1 : DevRef τ sig) = V (main_arg1 : DevRef τ sig) := by
  show after (headOps ++ tailOps) V (main_arg1 : DevRef τ sig) = _
  rw [after_append, tail_arg1, head_arg1]
theorem ops_arg2 (V : Valuation τ sig (Elt F)) : after ops V (main_arg2 : DevRef τ sig) = V (main_arg2 : DevRef τ sig) := by
  show after (headOps ++ tailOps) V (main_arg2 : DevRef τ sig) = _
  rw [after_append, tail_arg2, head_arg2]
theorem ops_arg3 (V : Valuation τ sig (Elt F)) : after ops V (main_arg3 : DevRef τ sig) = V (main_arg3 : DevRef τ sig) := by
  show after (headOps ++ tailOps) V (main_arg3 : DevRef τ sig) = _
  rw [after_append, tail_arg3, head_arg3]
theorem ops_arg4 (V : Valuation τ sig (Elt F)) : after ops V (main_arg4 : DevRef τ sig) = V (main_arg4 : DevRef τ sig) := by
  show after (headOps ++ tailOps) V (main_arg4 : DevRef τ sig) = _
  rw [after_append, tail_arg4, head_arg4]

end Cert.ReferenceIdeal.RefRun

end
-- ==== Proof.HeadAgree.lean ====
/- The kernel's program and the reference run the same 68 host operations before anything else: from contents
   agreeing on the arguments, the policy loss (`main_v31`) and the value loss (`main_v34`) they leave are equal.
   Each side's fold is read as a term of the argument buffers, the arguments are identified, and the two terms are
   the same operations with their shapes and side conditions spelt in the two programs' vocabularies. -/
import proofs.«101234_j55662776156760_1_alg».proof.Proof.RefOps
import proofs.«101234_j55662776156760_1_alg».proof.Proof.Gen.KernelIdeal
import proofs.«101234_j55662776156760_1_alg».proof.Proof.Gen.KernelIdeal.Launch
import Idealize.ShloMosaic.PureOps.Ideal

noncomputable section

namespace Cert.HeadAgree

open Idealize.ShloMosaic Idealize.ShloMosaic.TcCoe Idealize.SL.Sem Idealize.ShloMosaic.StableHlo

/-- The kernel program's host operations before its region, for any float values. -/
abbrev kHeadAny {F : FTy → Type} [FloatOps F] : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6]

/-- The same at the extended reals. -/
abbrev kHead : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6]

/-- The policy loss, for any float values: the negated mean over the 8192 positions of `(arg2 − arg3)` times the
    gathered log-probability masked to each row's last valid position. Both folds unrolled to terms of the arguments
    (each operation's result read at its own buffer, every other buffer left as it was), the arguments identified;
    what is left is one term spelt twice. -/
theorem v31_agree_any {F : FTy → Type} [FloatOps F] (V : Valuation Cert.KernelIdeal.τ Cert.KernelIdeal.sig (Elt F)) (V' : Valuation Cert.ReferenceIdeal.τ Cert.ReferenceIdeal.sig (Elt F))
    (h1 : V' (Cert.ReferenceIdeal.main_arg1 : DevRef _ _) = V (Cert.KernelIdeal.main_arg1 : DevRef _ _))
    (h2 : V' (Cert.ReferenceIdeal.main_arg2 : DevRef _ _) = V (Cert.KernelIdeal.main_arg2 : DevRef _ _))
    (h3 : V' (Cert.ReferenceIdeal.main_arg3 : DevRef _ _) = V (Cert.KernelIdeal.main_arg3 : DevRef _ _))
    (h4 : V' (Cert.ReferenceIdeal.main_arg4 : DevRef _ _) = V (Cert.KernelIdeal.main_arg4 : DevRef _ _)) :
    after Cert.ReferenceIdeal.RefRun.headOps V' (Cert.ReferenceIdeal.main_v31 : DevRef _ _)
      = after kHeadAny V (Cert.KernelIdeal.main_v31 : DevRef _ _) := by
  simp (disch := decide) only [kHeadAny, Cert.ReferenceIdeal.RefRun.headOps, List.flatten_cons, List.flatten_nil, List.append_nil,
      after_append, after_cons, after_nil,
      nullary_result', unary_result', binary_result', ternary_result', reshape_result',
      nullary_result_ne', unary_result_ne', binary_result_ne', ternary_result_ne', reshape_result_ne']
  rw [h1, h2, h3, h4]
  rfl

/-- The value loss, for any float values: the mean over the 8192 positions of `(arg2 − arg3)²`. -/
theorem v34_agree_any {F : FTy → Type} [FloatOps F] (V : Valuation Cert.KernelIdeal.τ Cert.KernelIdeal.sig (Elt F)) (V' : Valuation Cert.ReferenceIdeal.τ Cert.ReferenceIdeal.sig (Elt F))
    (h1 : V' (Cert.ReferenceIdeal.main_arg1 : DevRef _ _) = V (Cert.KernelIdeal.main_arg1 : DevRef _ _))
    (h2 : V' (Cert.ReferenceIdeal.main_arg2 : DevRef _ _) = V (Cert.KernelIdeal.main_arg2 : DevRef _ _))
    (h3 : V' (Cert.ReferenceIdeal.main_arg3 : DevRef _ _) = V (Cert.KernelIdeal.main_arg3 : DevRef _ _))
    (h4 : V' (Cert.ReferenceIdeal.main_arg4 : DevRef _ _) = V (Cert.KernelIdeal.main_arg4 : DevRef _ _)) :
    after Cert.ReferenceIdeal.RefRun.headOps V' (Cert.ReferenceIdeal.main_v34 : DevRef _ _)
      = after kHeadAny V (Cert.KernelIdeal.main_v34 : DevRef _ _) := by
  simp (disch := decide) only [kHeadAny, Cert.ReferenceIdeal.RefRun.headOps, List.flatten_cons, List.flatten_nil, List.append_nil,
      after_append, after_cons, after_nil,
      nullary_result', unary_result', binary_result', ternary_result', reshape_result',
      nullary_result_ne', unary_result_ne', binary_result_ne', ternary_result_ne', reshape_result_ne']
  rw [h2, h3]

theorem v31_agree (V : Valuation Cert.KernelIdeal.τ Cert.KernelIdeal.sig (Elt Ideal)) (V' : Valuation Cert.ReferenceIdeal.τ Cert.ReferenceIdeal.sig (Elt Ideal))
    (h1 : V' (Cert.ReferenceIdeal.main_arg1 : DevRef _ _) = V (Cert.KernelIdeal.main_arg1 : DevRef _ _))
    (h2 : V' (Cert.ReferenceIdeal.main_arg2 : DevRef _ _) = V (Cert.KernelIdeal.main_arg2 : DevRef _ _))
    (h3 : V' (Cert.ReferenceIdeal.main_arg3 : DevRef _ _) = V (Cert.KernelIdeal.main_arg3 : DevRef _ _))
    (h4 : V' (Cert.ReferenceIdeal.main_arg4 : DevRef _ _) = V (Cert.KernelIdeal.main_arg4 : DevRef _ _)) :
    StableHlo.after Cert.ReferenceIdeal.RefRun.headOps V' (Cert.ReferenceIdeal.main_v31 : DevRef _ _)
      = StableHlo.after kHead V (Cert.KernelIdeal.main_v31 : DevRef _ _) :=
  v31_agree_any V V' h1 h2 h3 h4

theorem v34_agree (V : Valuation Cert.KernelIdeal.τ Cert.KernelIdeal.sig (Elt Ideal)) (V' : Valuation Cert.ReferenceIdeal.τ Cert.ReferenceIdeal.sig (Elt Ideal))
    (h1 : V' (Cert.ReferenceIdeal.main_arg1 : DevRef _ _) = V (Cert.KernelIdeal.main_arg1 : DevRef _ _))
    (h2 : V' (Cert.ReferenceIdeal.main_arg2 : DevRef _ _) = V (Cert.KernelIdeal.main_arg2 : DevRef _ _))
    (h3 : V' (Cert.ReferenceIdeal.main_arg3 : DevRef _ _) = V (Cert.KernelIdeal.main_arg3 : DevRef _ _))
    (h4 : V' (Cert.ReferenceIdeal.main_arg4 : DevRef _ _) = V (Cert.KernelIdeal.main_arg4 : DevRef _ _)) :
    StableHlo.after Cert.ReferenceIdeal.RefRun.headOps V' (Cert.ReferenceIdeal.main_v34 : DevRef _ _)
      = StableHlo.after kHead V (Cert.KernelIdeal.main_v34 : DevRef _ _) :=
  v34_agree_any V V' h1 h2 h3 h4

end Cert.HeadAgree

end
-- ==== Proof.lean ====
import proofs.«101234_j55662776156760_1_alg».proof.Defs
import proofs.«101234_j55662776156760_1_alg».proof.Proof.Gen.Kernel
import proofs.«101234_j55662776156760_1_alg».proof.Proof.Gen.Kernel.Frame
import proofs.«101234_j55662776156760_1_alg».proof.Proof.Gen.KernelIdeal
import proofs.«101234_j55662776156760_1_alg».proof.Proof.Gen.KernelIdeal.Frame
import proofs.«101234_j55662776156760_1_alg».proof.Proof.Gen.ReferenceIdeal
import proofs.«101234_j55662776156760_1_alg».proof.Proof.Gen.Pre_finite_inputs
import proofs.«101234_j55662776156760_1_alg».proof.Proof.KernelSum
import proofs.«101234_j55662776156760_1_alg».proof.Proof.RefTail
import proofs.«101234_j55662776156760_1_alg».proof.Proof.HeadAgree
import proofs.«101234_j55662776156760_1_alg».proof.Proof.EntropyAlgebra
import Idealize.ShloMosaic.Adequacy
import Idealize.ShloMosaic.Init

/-!
# The certificate

Both programs compute  policy + 0.5 * value + 0.005 * E  from the same policy loss and value loss (the same host
operations on the same arguments) and an entropy term E. The kernel's E is the sum of p * log p over every element
of the first argument, accumulated block by block by the pallas_call, divided by 8192. The reference's E negates
each row's sum, sums the negated rows, divides by 8192 and negates again. On the extended reals p * log p is never
minus infinity, so negation distributes over these finite sums and the two E are one value; nothing is assumed of
the inputs.

The word-level kernel and its idealization run by their generated frames; the reference by its list of host
operations; the ideal pass rewrote nothing.
-/

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.ops_arg0 _),
      (h c Cert.ReferenceIdeal.main_arg1).trans (Cert.ReferenceIdeal.RefRun.ops_arg1 _),
      (h c Cert.ReferenceIdeal.main_arg2).trans (Cert.ReferenceIdeal.RefRun.ops_arg2 _),
      (h c Cert.ReferenceIdeal.main_arg3).trans (Cert.ReferenceIdeal.RefRun.ops_arg3 _),
      (h c Cert.ReferenceIdeal.main_arg4).trans (Cert.ReferenceIdeal.RefRun.ops_arg4 _)⟩)
    (Cert.ReferenceIdeal.RefRun.run_main (F := Ideal) m ρ)

theorem preserves : Cert.preserves_Kernel_KernelIdeal := trivial

/-- The two entropy terms are one value: the reference's, read at its one index, and the kernel's are both the
    sum of p * log p over the argument divided by 8192. -/
theorem entropy_eq (m : (ℓ : Loc Cert.KernelIdeal.nD Cert.KernelIdeal.τ Cert.KernelIdeal.sig) → Buf (Elt Ideal) ℓ)
    (c : Dev Cert.KernelIdeal.nD)
    (a0 : FVec Ideal Cert.ReferenceIdeal.S16x512x32000 .f32)
    (ha : a0 = m ((c.tc : Thread Cert.KernelIdeal.nD Cert.KernelIdeal.τ).loc Cert.KernelIdeal.main_arg0)) :
    Host.negf (F := Ideal) (Host.divf (Host.reduceAdd (Host.negf (Host.reduceAdd (mulf a0 (Host.log a0))
        (constant Cert.ReferenceIdeal.S_ .f32 0x00000000#32) Cert.ReferenceIdeal.Facts₀.reducesTo_S16x512x32000_S16x512_d2 Cert.ReferenceIdeal.Facts₀.h_S_))
        (constant Cert.ReferenceIdeal.S_ .f32 0x00000000#32) Cert.ReferenceIdeal.Facts₀.reducesTo_S16x512_S_d0_1 Cert.ReferenceIdeal.Facts₀.h_S_)
        (constant Cert.ReferenceIdeal.S_ .f32 0x46000000#32))
      = Host.divf (F := Ideal) (shapeCast Cert.KernelIdeal.S_ (Cert.KernelIdeal.KVal.result m c) Cert.KernelIdeal.Facts₀.shapeCasts_S1x1_S_)
          (constant Cert.KernelIdeal.S_ .f32 0x46000000#32) := by
  subst ha
  funext j
  exact (Cert.EntropyAlg.ref_entropy _ _ _ _ j).trans (Cert.KernelIdeal.KVal.entropy_apply m c j).symm

/-- From arguments that agree the two programs end with equal results. -/
theorem algebraic : Cert.algebraic_KernelIdeal_ReferenceIdeal := by
  intro m ρ m' ρ' _ hagree
  refine ⟨fun c => Cert.KernelIdeal.KVal.combine (Cert.KernelIdeal.Gen.V m c Cert.KernelIdeal.main_v31)
      (Cert.KernelIdeal.Gen.V m c Cert.KernelIdeal.main_v34) (Cert.KernelIdeal.KVal.result m c),
    Cert.KernelIdeal.KVal.run m ρ, ?_⟩
  refine (θ_run Cert.ReferenceIdeal.defs _ _).mono (fun _ h c =>
    ⟨(h c Cert.ReferenceIdeal.main_v45).trans ?_,
      (h c Cert.ReferenceIdeal.main_arg0).trans (Cert.ReferenceIdeal.RefRun.ops_arg0 _),
      (h c Cert.ReferenceIdeal.main_arg1).trans (Cert.ReferenceIdeal.RefRun.ops_arg1 _),
      (h c Cert.ReferenceIdeal.main_arg2).trans (Cert.ReferenceIdeal.RefRun.ops_arg2 _),
      (h c Cert.ReferenceIdeal.main_arg3).trans (Cert.ReferenceIdeal.RefRun.ops_arg3 _),
      (h c Cert.ReferenceIdeal.main_arg4).trans (Cert.ReferenceIdeal.RefRun.ops_arg4 _)⟩)
    (Cert.ReferenceIdeal.RefRun.run_main (F := Ideal) m' ρ')
  rw [Cert.ReferenceIdeal.RefRun.ops_v45,
    Cert.HeadAgree.v31_agree (fun b => m (c, b)) (StableHlo.launchContents m' c)
      (hagree c).2.1 (hagree c).2.2.1 (hagree c).2.2.2.1 (hagree c).2.2.2.2,
    Cert.HeadAgree.v34_agree (fun b => m (c, b)) (StableHlo.launchContents m' c)
      (hagree c).2.1 (hagree c).2.2.1 (hagree c).2.2.2.1 (hagree c).2.2.2.2,
    entropy_eq m c _ (hagree c).1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
